-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S1 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  main_v3
-- ==== Kernel.lean ====
abbrev S1 : Shape := ⟨1, ![1]⟩
abbrev S1x2x2x3 : Shape := ⟨4, ![1, 2, 2, 3]⟩
abbrev S1x1x1x1 : Shape := ⟨4, ![1, 1, 1, 1]⟩

abbrev nBuf : Space → Nat
  | .hbm => 2
  | .vmem => 2
  | .smem => 0
  | _ => 0

abbrev bufTy : (tb : Table) → Fin (tcTables nBuf tb) → BufTy
  | .hbm, ⟨0, _⟩ => ⟨S1, .f32⟩
  | .hbm, ⟨1, _⟩ => ⟨S1x2x2x3, .f32⟩
  | .local _ .vmem, ⟨0, _⟩ => ⟨S1, .f32⟩
  | .local _ .vmem, ⟨1, _⟩ => ⟨S1x2x2x3, .f32⟩
  | _, _ => ⟨S1, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2x2x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1_S1_0 : ∀ a, (![0] : Fin 1 → Nat) a + S1.size a ≤ S1.size a
  h_S1 : 0 < S1.numel
  shapeCasts_S1_S1x1x1x1 : S1.ShapeCasts S1x1x1x1
  shapeCasts_S1x1x1x1_S1x1x1x1 : S1x1x1x1.ShapeCasts S1x1x1x1
  broadcasts_S1x1x1x1_S1x2x2x3 : S1x1x1x1.Broadcasts S1x2x2x3
  iota_S1x2x2x3_d1_w32 : S1x2x2x3.Iotas .tc 32 [1]
  iota_S1x2x2x3_d2_w32 : S1x2x2x3.Iotas .tc 32 [2]
  iota_S1x2x2x3_d3_w32 : S1x2x2x3.Iotas .tc 32 [3]
  inb_S1x2x2x3_S1x2x2x3_0_0_0_0 : ∀ a, (![0, 0, 0, 0] : Fin 4 → Nat) a + S1x2x2x3.size a ≤ S1x2x2x3.size a
  h_S1x2x2x3 : 0 < S1x2x2x3.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2x2x3.size a ≤ S1x2x2x3.size a
  hwx0_1 : ∀ i : grid0.Coords, EltTy.bits .f32 = 32 ∨ (Rect.block (s := S1x2x2x3) S1x2x2x3.size (cc0_transform_1 i) (hinb0_1 i)).WholeWords (EltTy.packing .f32)

variable [Facts₀]

abbrev win0_0 : Pipeline.Window sig grid0 :=
  Pipeline.Window.ofSpec (Memref.whole main_arg0) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x2x3.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1 : Shape := ⟨1, ![1]⟩
abbrev S_ : Shape := ⟨0, ![]⟩
abbrev S1x2x2x3 : Shape := ⟨4, ![1, 2, 2, 3]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x2x2x3, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S4, .i32⟩
  | .hbm, ⟨15, _⟩ => ⟨S_, .f32⟩
  | .hbm, ⟨16, _⟩ => ⟨S1x2x2x3, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S4, .i32⟩
  | .hbm, ⟨26, _⟩ => ⟨S1x2x2x3, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S4, .i32⟩
  | .hbm, ⟨36, _⟩ => ⟨S1x2x2x3, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_c_6 : Ref sig .tc := ⟨.hbm, 21, rfl⟩
abbrev main_v12 : Ref sig .tc := ⟨.hbm, 22, rfl⟩
abbrev main_c_7 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_8 : Ref sig .tc := ⟨.hbm, 27, rfl⟩
abbrev main_v16 : Ref sig .tc := ⟨.hbm, 28, rfl⟩
abbrev main_c_9 : Ref sig .tc := ⟨.hbm, 29, rfl⟩
abbrev main_v17 : Ref sig .tc := ⟨.hbm, 30, rfl⟩
abbrev main_c_10 : Ref sig .tc := ⟨.hbm, 31, rfl⟩
abbrev main_v18 : Ref sig .tc := ⟨.hbm, 32, rfl⟩
abbrev main_c_11 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  shapeCasts_S1_S_ : S1.ShapeCasts S_
  bcast_S_S1x2x2x3 : S_.BroadcastsInDim S1x2x2x3 (![] : Fin 0 → Fin S1x2x2x3.rank)
  bcast_S_S1 : S_.BroadcastsInDim S1 (![] : Fin 0 → Fin S1.rank)
  concatenates_S1_S1_S1_S1_S4_d0 : Shape.Concatenates [S1, S1, S1, S1] S4 0
  scatter_S1x2x2x3_S4_S__n_0123_0123_0_wf : ScatterDims.WF S1x2x2x3 S4 S_ [] [0, 1, 2, 3] [0, 1, 2, 3] 0

variable [Facts₀]

def scatter_S1x2x2x3_S4_S__n_0123_0123_0 : ScatterDims S1x2x2x3 S4 S_ where
  updateWindowDims := []
  insertedWindowDims := [0, 1, 2, 3]
  scatterDimsToOperandDims := [0, 1, 2, 3]
  indexVectorDim := 0
  wf := scatter_S1x2x2x3_S4_S__n_0123_0123_0_wf

class Facts : Prop extends Facts₀ where

variable [Facts]
-- ==== Proof.LibCoordMask.lean ====
/-
  Masks that single out one position of an array by its coordinates.

  A kernel builds such a mask from `iota`s: on each axis it compares the coordinate, as a 32-bit word, with a
  literal, and it conjoins the one-bit results. For coordinates and literals below 2^32 the comparison of the
  words is the comparison of the numbers, the conjunction of the bits is the bit of the conjunction, and a
  select on such a bit is the `if` on the proposition. So a select under the mask "coordinates are (p, q, r)"
  is `if` the coordinates are (p, q, r).
-/
import Idealize.ShloMosaic.PureOps
import Idealize.ShloMosaic.Lib.ValueIdx

noncomputable section

namespace Cert.Lib

open Idealize.ShloMosaic

/-- Two naturals below 2^32, compared for equality as 32-bit words, give the bit of their equality: the
    words of distinct such numbers are distinct, since a number below 2^32 is its word's value. -/
theorem cmpi_eq_ofNat (b p : Nat) (hb : b < 2 ^ 32) (hp : p < 2 ^ 32) :
    IntOp.cmpi .eq (BitVec.ofNat 32 b) (BitVec.ofNat 32 p) = BitVec.ofBool (decide (b = p)) := by
  unfold IntOp.cmpi
  congr 1
  by_cases h : b = p
  · subst h; simp
  · have hne : BitVec.ofNat 32 b ≠ BitVec.ofNat 32 p := by
      intro e
      have e' := congrArg BitVec.toNat e
      simp only [BitVec.toNat_ofNat] at e'
      rw [Nat.mod_eq_of_lt hb, Nat.mod_eq_of_lt hp] at e'
      exact h e'
    simp [h, hne]

/-- The bitwise conjunction of two bits is the bit of the conjunction. -/
theorem andi_ofBool (x y : Bool) : IntOp.andi (BitVec.ofBool x) (BitVec.ofBool y) = BitVec.ofBool (x && y) := by
  cases x <;> cases y <;> rfl

/-- A select on the bit of a decidable proposition is the `if` on the proposition. -/
theorem select_ofBool {α : Type} (P : Prop) [Decidable P] (a b : α) :
    Scalar.select (BitVec.ofBool (decide P)) a b = if P then a else b := by
  by_cases h : P
  · simp [h, Scalar.select]
  · simp [h, Scalar.select]

/-- A select under the mask "the three coordinates `b`, `c`, `e` are `p`, `q`, `r`", the mask built as the
    kernel builds it — three word comparisons conjoined left to right — is the `if` on that conjunction. -/
theorem select_point {α : Type} (b c e p q r : Nat) (hb : b < 2 ^ 32) (hc : c < 2 ^ 32) (he : e < 2 ^ 32)
    (hp : p < 2 ^ 32) (hq : q < 2 ^ 32) (hr : r < 2 ^ 32) (x y : α) :
    Scalar.select
        (IntOp.andi (IntOp.andi (IntOp.cmpi .eq (BitVec.ofNat 32 b) (BitVec.ofNat 32 p))
          (IntOp.cmpi .eq (BitVec.ofNat 32 c) (BitVec.ofNat 32 q)))
          (IntOp.cmpi .eq (BitVec.ofNat 32 e) (BitVec.ofNat 32 r))) x y
      = if b = p ∧ c = q ∧ e = r then x else y := by
  rw [cmpi_eq_ofNat b p hb hp, cmpi_eq_ofNat c q hc hq, cmpi_eq_ofNat e r he hr, andi_ofBool, andi_ofBool,
    ← Bool.decide_and, ← Bool.decide_and, select_ofBool]
  exact if_congr and_assoc rfl rfl

end Cert.Lib

end
-- ==== Proof.Spec.lean ====
/-
  The array both programs compute, as one function of the angle.

  The result has shape [1, 2, 2, 3]. It is zero everywhere except at three positions: 1 at (0,0,0,0),
  cos θ at (0,1,1,1) and sin θ at (0,1,1,2) — the left core of a plane rotation written as a sum of three
  rank-one terms. One program writes it as a table looked up by coordinates (a chain of selects under
  position masks); the other starts from the zero array and overwrites the three positions one after the
  other. The three positions are distinct, so the order of the overwrites does not matter and the two
  arrangements are the same function: `overwrites_eq`.
-/
import Idealize.ShloMosaic.PureOps.Ideal
import Idealize.ShloMosaic.Lib.ValueIdx

noncomputable section

namespace Cert.Spec

open Idealize.ShloMosaic Idealize.ShloMosaic.ValueIdx

/-- The result's shape. -/
abbrev Core : Shape := ⟨4, ![1, 2, 2, 3]⟩

/-- The table by coordinates: `one` at (·,0,0,0), `c` at (·,1,1,1), `s` at (·,1,1,2), `zero` elsewhere (the
    leading axis has extent one, so its coordinate is not asked). -/
def pointTable {α : Type} (one c s zero : α) : Core.Idx → α := fun i =>
  if (i 1).val = 0 ∧ (i 2).val = 0 ∧ (i 3).val = 0 then one
  else if (i 1).val = 1 ∧ (i 2).val = 1 ∧ (i 3).val = 1 then c
  else if (i 1).val = 1 ∧ (i 2).val = 1 ∧ (i 3).val = 2 then s
  else zero

/-- The core at the angle `θ`, on the extended reals: the float words of 1.0 and 0.0 kept as words (both
    programs spell them with the same words, so they are never evaluated). -/
def rotationCore (θ : EReal) : Core.Idx → EReal :=
  pointTable (Ideal.ofBits .f32 0x3F800000#32) (Ideal.cos θ) (Ideal.sin θ) (Ideal.ofBits .f32 0x00000000#32)

/-- An index of the core is the position (0, p, q, r) exactly when its last three coordinates are p, q, r
    (the leading axis has extent one, so its coordinate is 0 anyway). -/
theorem eq_point_iff (i : Core.Idx) (p q r : Nat) (hp : p < 2) (hq : q < 2) (hr : r < 3) :
    i = (ix4 (0 : Fin 1) (⟨p, hp⟩ : Fin 2) (⟨q, hq⟩ : Fin 2) (⟨r, hr⟩ : Fin 3) : Core.Idx)
      ↔ (i 1).val = p ∧ (i 2).val = q ∧ (i 3).val = r := by
  constructor
  · rintro rfl; exact ⟨rfl, rfl, rfl⟩
  · rintro ⟨h1, h2, h3⟩
    have h0 : (i 0).val < 1 := (i 0).isLt
    funext a
    match a with
    | ⟨0, _⟩ => exact Fin.ext (by show (i 0).val = 0; omega)
    | ⟨1, _⟩ => exact Fin.ext h1
    | ⟨2, _⟩ => exact Fin.ext h2
    | ⟨3, _⟩ => exact Fin.ext h3

/-- THE LAW JOINING THE TWO ARRANGEMENTS. The zero array overwritten at (0,0,0,0) by `one`, then at
    (0,1,1,1) by `c`, then at (0,1,1,2) by `s` (read from the last overwrite back) is the table by
    coordinates: the three positions differ pairwise in some coordinate, so at most one test succeeds.
    (Stated for any way of deciding equality of indices, so that it meets the one a program's term carries.) -/
theorem overwrites_eq {α : Type} [DecidableEq Core.Idx] (one c s zero : α) :
    (fun i : Core.Idx =>
        if i = (ix4 (0 : Fin 1) (1 : Fin 2) (1 : Fin 2) (2 : Fin 3) : Core.Idx) then s
        else if i = (ix4 (0 : Fin 1) (1 : Fin 2) (1 : Fin 2) (1 : Fin 3) : Core.Idx) then c
        else if i = (ix4 (0 : Fin 1) (0 : Fin 2) (0 : Fin 2) (0 : Fin 3) : Core.Idx) then one
        else zero)
      = pointTable one c s zero := by
  funext i
  unfold pointTable
  -- each test "the index is the position" is a test on the last three coordinates
  have h2 : i = (ix4 (0 : Fin 1) (1 : Fin 2) (1 : Fin 2) (2 : Fin 3) : Core.Idx)
      ↔ (i 1).val = 1 ∧ (i 2).val = 1 ∧ (i 3).val = 2 := eq_point_iff i 1 1 2 (by omega) (by omega) (by omega)
  have h1 : i = (ix4 (0 : Fin 1) (1 : Fin 2) (1 : Fin 2) (1 : Fin 3) : Core.Idx)
      ↔ (i 1).val = 1 ∧ (i 2).val = 1 ∧ (i 3).val = 1 := eq_point_iff i 1 1 1 (by omega) (by omega) (by omega)
  have h0 : i = (ix4 (0 : Fin 1) (0 : Fin 2) (0 : Fin 2) (0 : Fin 3) : Core.Idx)
      ↔ (i 1).val = 0 ∧ (i 2).val = 0 ∧ (i 3).val = 0 := eq_point_iff i 0 0 0 (by omega) (by omega) (by omega)
  simp only [h2, h1, h0]
  split_ifs <;> first | rfl | omega

end Cert.Spec

end
-- ==== Proof.KernelPayload.lean ====
/-
  The kernel body's stored value, index by index, is the core at the loaded angle.

  The body loads the one-element block θ, views it as [1,1,1,1], takes its cosine and sine, and broadcasts
  each to [1,2,2,3]. It builds three masks from the coordinates on the last three axes — "is (0,0,0)",
  "is (1,1,1)", "is (1,1,2)" — and stores
      select(is (0,0,0), 1.0, select(is (1,1,1), cos θ, select(is (1,1,2), sin θ, 0.0))).
  A select under such a mask is the `if` on the coordinates, a broadcast of a one-element array reads that
  element everywhere, and the [1] → [1,1,1,1] view keeps the element; so the stored value at an index is the
  table by coordinates at cos θ and sin θ.
-/
import proofs.«149861_j45157286150747_2_alg».proof.Proof.Gen.KernelIdeal.Skeleton
import proofs.«149861_j45157286150747_2_alg».proof.Proof.LibCoordMask
import proofs.«149861_j45157286150747_2_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.Spec Cert.Lib

/-- A one-element array, re-viewed at its own shape and broadcast to [1,2,2,3], reads its one element at
    every index: every axis of the operand has extent one, so every coordinate of the operand index is 0. -/
theorem splat_apply (u : FVec Ideal S1x1x1x1 .f32) (j : S1x2x2x3.Idx) :
    broadcastTo S1x2x2x3 (shapeCast S1x1x1x1 u shapeCasts_S1x1x1x1_S1x1x1x1) broadcasts_S1x1x1x1_S1x2x2x3 j
      = u (ix4 (0 : Fin 1) (0 : Fin 1) (0 : Fin 1) (0 : Fin 1)) := by
  rw [shapeCast_self]
  exact broadcastTo_apply u _ j _
    (fun a => by match a with | ⟨0, _⟩ => rfl | ⟨1, _⟩ => rfl | ⟨2, _⟩ => rfl | ⟨3, _⟩ => rfl)

/-- The loaded block [1] viewed as [1,1,1,1] holds the block's one element: both shapes have a single
    row-major position. -/
theorem angle_apply (v0 : Vec Ideal S1 .f32) :
    shapeCast S1x1x1x1 v0 shapeCasts_S1_S1x1x1x1 (ix4 (0 : Fin 1) (0 : Fin 1) (0 : Fin 1) (0 : Fin 1))
      = v0 (ix1 (0 : Fin 1)) := by
  refine shapeCast_apply v0 _ _ _ ?_
  have h1 := (S1.rowMajor (ix1 (0 : Fin 1))).isLt
  have h2 := (S1x1x1x1.rowMajor (ix4 (0 : Fin 1) (0 : Fin 1) (0 : Fin 1) (0 : Fin 1))).isLt
  have e1 : S1.numel = 1 := by decide
  have e2 : S1x1x1x1.numel = 1 := by decide
  omega

/-- A select under the kernel's mask "the coordinates on axes 1, 2, 3 are p, q, r" — each axis's `iota`
    compared with the splat literal, the three bits conjoined — is, at an index, the `if` on those coordinates:
    an `iota` along one axis reads that coordinate, and the coordinates are below the extents 2, 2, 3. -/
theorem mask_select {α : Type} (p q r : Nat) (hp : p < 2 ^ 32) (hq : q < 2 ^ 32) (hr : r < 2 ^ 32)
    (x y : S1x2x2x3.Idx → α) (j : S1x2x2x3.Idx) :
    select (andi (andi (cmpi .eq (iota .tc S1x2x2x3 32 [1] iota_S1x2x2x3_d1_w32) (broadcast S1x2x2x3 (BitVec.ofNat 32 p)))
        (cmpi .eq (iota .tc S1x2x2x3 32 [2] iota_S1x2x2x3_d2_w32) (broadcast S1x2x2x3 (BitVec.ofNat 32 q))))
        (cmpi .eq (iota .tc S1x2x2x3 32 [3] iota_S1x2x2x3_d3_w32) (broadcast S1x2x2x3 (BitVec.ofNat 32 r)))) x y j
      = if (j 1).val = p ∧ (j 2).val = q ∧ (j 3).val = r then x j else y j := by
  show Scalar.select (IntOp.andi (IntOp.andi
      (IntOp.cmpi .eq (iota .tc S1x2x2x3 32 [1] iota_S1x2x2x3_d1_w32 j) (BitVec.ofNat 32 p))
      (IntOp.cmpi .eq (iota .tc S1x2x2x3 32 [2] iota_S1x2x2x3_d2_w32 j) (BitVec.ofNat 32 q)))
      (IntOp.cmpi .eq (iota .tc S1x2x2x3 32 [3] iota_S1x2x2x3_d3_w32 j) (BitVec.ofNat 32 r))) (x j) (y j) = _
  rw [iota_single_apply, iota_single_apply, iota_single_apply]
  have h1 : (j 1).val < 2 := (j 1).isLt
  have h2 : (j 2).val < 2 := (j 2).isLt
  have h3 : (j 3).val < 3 := (j 3).isLt
  exact select_point _ _ _ p q r (by omega) (by omega) (by omega) hp hq hr _ _

/-- THE BODY'S STORED VALUE is the core at the loaded angle: the three selects become the three tests on
    the coordinates, in the table's order; the two broadcasts read cos and sin of the one loaded element;
    the splat words of 1.0 and 0.0 are the table's. -/
theorem payload_eq (v0 : Vec Ideal S1 .f32) : k0_pay1 (F := Ideal) v0 = rotationCore (v0 (ix1 (0 : Fin 1))) := by
  funext j
  unfold k0_pay1
  dsimp only
  rw [mask_select 0 0 0 (by norm_num) (by norm_num) (by norm_num),
    mask_select 1 1 1 (by norm_num) (by norm_num) (by norm_num),
    mask_select 1 1 2 (by norm_num) (by norm_num) (by norm_num)]
  rw [splat_apply, splat_apply]
  show (if _ then _ else if _ then Ideal.cos (shapeCast S1x1x1x1 v0 shapeCasts_S1_S1x1x1x1 _)
    else if _ then Ideal.sin (shapeCast S1x1x1x1 v0 shapeCasts_S1_S1x1x1x1 _) else _) = _
  rw [angle_apply]
  rfl

end Cert.KernelIdeal.Payload

end
-- ==== Proof.KernelValue.lean ====
/-
  The kernel's result array after the run is the core at the argument's one element.

  The grid has a single point. There the input window's block is the whole one-element argument, and the
  output window's block is the whole [1,2,2,3] result: both index maps are constantly zero and each block has
  its array's extents. So what the point writes back — the body's stored value of its input block — is the
  core at the argument's element, read through a block that is the array itself, and that one block covers
  every index of the result.
-/
import proofs.«149861_j45157286150747_2_alg».proof.Proof.Gen.KernelIdeal.Value
import proofs.«149861_j45157286150747_2_alg».proof.Proof.KernelPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Idealize.ShloMosaic.ValueIdx Cert.Spec

variable (m : (ℓ : Loc nD τ sig) → Buf (Elt Ideal) ℓ) (ρ : Dev nD → PrngReg)

theorem hz1 : (![0] : Fin 1 → Nat) = fun _ => 0 := funext fun a => by fin_cases a <;> rfl
theorem hz4 : (![0, 0, 0, 0] : Fin 4 → Nat) = fun _ => 0 := funext fun a => by fin_cases a <;> rfl

/-- The angle: the one element of the argument array as launched. -/
abbrev angle (c : Dev nD) : EReal :=
  (m ((c : Thread nD τ).loc main_arg0) : S1.Idx → EReal) (ix1 (0 : Fin 1))

/-- The input window's block at the grid's one point holds the argument's element: the block index is 0
    and the block has extent one, so the block's element 0 is the array's element 0·1 + 0. -/
theorem iblk_angle (c : Dev nD) : (iblk m c 0 t0_0 : Vec Ideal S1 .f32) (ix1 (0 : Fin 1)) = angle m c := by
  unfold iblk
  rw [View.read_apply]
  show V m c main_arg0 _ = m (c.tc.loc main_arg0) _
  unfold V
  congr 1
  funext a
  apply Fin.ext
  match a with
  | ⟨0, _⟩ =>
    show win0_0.index t0_0 0 * 1 + 1 * 0 = 0
    rw [show win0_0.index t0_0 0 = 0 from by decide +kernel]

/-- WHAT THE ONE POINT WRITES BACK is the core at the angle, read through the output's block — which, at
    block index zero and with the array's own extents, is the whole array. -/
theorem flushed_eq (c : Dev nD) (t : Fin cfg0.N) (hf : (cfg0.win 1).flush t = true) :
    (dats m 0 c).flushed 1 t = ((cfg0.win 1).blk t).view.read (Elt Ideal) (rotationCore (angle m c)) := by
  obtain rfl : t = t0_0 := fin_N0 t
  rw [Value.flushed1]
  unfold out0_1
  rw [View.canon_unit_zero hz4]
  simp only [View.ld_unit_zero (S := S1) hz1]
  rw [Payload.payload_eq, iblk_angle]
  have hz' : (fun a => win0_1.index t0_0 a * main_v0.ty.shape.size a) = fun _ => 0 :=
    funext fun a => by fin_cases a <;> decide +kernel
  exact (Memref.read_access_unit_zero (Elt Ideal) main_v0 hz' (fun a => by rw [congrFun hz' a]; simp)
    (rotationCore (angle m c))).symm

/-- So the result array ends holding the core at the angle: the one block covers every index. -/
theorem final (c : Dev nD) : (dats m 0 c).arrAt 1 cfg0.N = rotationCore (angle m c) :=
  (dats m 0 c).arrAt_eq_of_cover 1 (rotationCore (angle m c)) (flushed_eq m c) fun i =>
    ⟨t0_0, flush0_1 t0_0, by
      show i ∈ ((View.whole main_v0).slice (win0_1.rect t0_0)).set
      rw [View.set_slice_whole, Rect.mem_set_unit]
      intro a
      have h0 : (i 0 : Nat) < 1 := (i 0).isLt
      have h1 : (i 1 : Nat) < 2 := (i 1).isLt
      have h2 : (i 2 : Nat) < 2 := (i 2).isLt
      have h3 : (i 3 : Nat) < 3 := (i 3).isLt
      match a with
      | ⟨0, _⟩ =>
        show win0_1.index t0_0 0 * win0_1.size 0 ≤ (i 0 : Nat) ∧ (i 0 : Nat) < win0_1.index t0_0 0 * win0_1.size 0 + win0_1.xsize (grid0.coords t0_0) 0
        rw [show win0_1.index t0_0 0 * win0_1.size 0 = 0 from by decide +kernel, show win0_1.xsize (grid0.coords t0_0) 0 = 1 from by decide +kernel]; omega
      | ⟨1, _⟩ =>
        show win0_1.index t0_0 1 * win0_1.size 1 ≤ (i 1 : Nat) ∧ (i 1 : Nat) < win0_1.index t0_0 1 * win0_1.size 1 + win0_1.xsize (grid0.coords t0_0) 1
        rw [show win0_1.index t0_0 1 * win0_1.size 1 = 0 from by decide +kernel, show win0_1.xsize (grid0.coords t0_0) 1 = 2 from by decide +kernel]; omega
      | ⟨2, _⟩ =>
        show win0_1.index t0_0 2 * win0_1.size 2 ≤ (i 2 : Nat) ∧ (i 2 : Nat) < win0_1.index t0_0 2 * win0_1.size 2 + win0_1.xsize (grid0.coords t0_0) 2
        rw [show win0_1.index t0_0 2 * win0_1.size 2 = 0 from by decide +kernel, show win0_1.xsize (grid0.coords t0_0) 2 = 2 from by decide +kernel]; omega
      | ⟨3, _⟩ =>
        show win0_1.index t0_0 3 * win0_1.size 3 ≤ (i 3 : Nat) ∧ (i 3 : Nat) < win0_1.index t0_0 3 * win0_1.size 3 + win0_1.xsize (grid0.coords t0_0) 3
        rw [show win0_1.index t0_0 3 * win0_1.size 3 = 0 from by decide +kernel, show win0_1.xsize (grid0.coords t0_0) 3 = 3 from by decide +kernel]; omega⟩

/-- The run, read: every weakly fair execution ends with the result array at the core at the angle and the
    argument unchanged. -/
theorem run : θ_run defs (onTc (τ := τ) (main (F := Ideal))) ⟨m, fun _ => 0, ρ⟩ fun r => ∀ c : Dev nD,
      r.2.mem ((c : Thread nD τ).loc main_v0) = rotationCore (angle m c)
      ∧ r.2.mem ((c : Thread nD τ).loc main_arg0) = m ((c : Thread nD τ).loc main_arg0) :=
  (θ_run defs _ _).mono (fun _ h c => ⟨(h c).1.trans (final m c), (h c).2⟩)
    (Cert.KernelIdeal.Value.run_blocks m ρ)

end Cert.KernelIdeal.ArrayValue

end
-- ==== Proof.LibScatterPoint.lean ====
/-
  A scatter of ONE scalar update whose body returns the update is a point overwrite.

  The host's scatter is a left fold, over the update's indices, of the step "replace the element at the
  update's target index by the body applied to the old element and the update, when that target lies inside
  the operand; drop the update when it does not". An update of rank 0 has exactly one index, so the fold is
  that one step; with the body `fun _ b => b` the step writes the update itself. Hence, when the target of
  the one update is the index `p`, the result is the operand with its entry at `p` replaced by the update
  and every other entry unchanged.
-/
import Idealize.ShloMosaic.PureOps
import Idealize.ShloMosaic.Lib.ValueIdx

noncomputable section

namespace Cert.Lib

open Idealize.ShloMosaic Idealize.ShloMosaic.ValueIdx

/-- The shape of a scalar: no axes, one element. -/
abbrev Scalar0 : Shape := ⟨0, ![]⟩

/-- A scalar update `upd` scattered into `x` with the overwriting body, its one target index being `p`
    (`hp`: the start read off the index vector, inside the operand on every axis), is `x` with the entry at
    `p` replaced by the update. -/
theorem scatter_scalar_set {s si : Shape} {w : Nat} {α : Type} (d : ScatterDims s si Scalar0)
    (x : s.Idx → α) (idx : IVec si w) (upd : Scalar0.Idx → α) (p : s.Idx)
    (hp : d.resultIdx? ix0 idx = some p) :
    Host.scatter d (fun _ b => b) x idx upd = fun i => if i = p then upd ix0 else x i := by
  unfold Host.scatter
  -- the update has one element, so the fold has one step
  have hl : List.finRange Scalar0.numel = [⟨0, by decide⟩] := by decide
  rw [hl]
  simp only [List.foldl_cons, List.foldl_nil]
  -- that element's index is the empty tuple, and its target is `p`
  rw [eq_ix0 (Scalar0.rowMajor.symm ⟨0, by decide⟩), hp]

end Cert.Lib

end
-- ==== Proof.RefValue.lean ====
/-
  The reference's result, index by index, is the core at its argument's one element.

  The reference takes the angle out of its one-element argument, computes its cosine and sine, fills a
  [1,2,2,3] array with 0.0, and scatters three scalars into it with the overwriting body: 1.0 at the index
  vector (0,0,0,0), cos θ at (0,1,1,1), sin θ at (0,1,1,2). Each index vector is a concatenation of four
  literal words; read signed, each lies inside the array on every axis, so each scatter overwrites exactly
  that position. Three successive overwrites of the zero array at three distinct positions are the table by
  coordinates.
-/
import proofs.«149861_j45157286150747_2_alg».proof.Proof.Gen.ReferenceIdeal.Read
import proofs.«149861_j45157286150747_2_alg».proof.Proof.LibScatterPoint
import proofs.«149861_j45157286150747_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Spec Cert.Lib

/-- The first scatter's one update lands at (0,0,0,0): the index vector is four zero words, and 0 is inside
    every axis. A closed statement about a literal table of integers, decided by evaluating it. -/
theorem target_one :
    scatter_S1x2x2x3_S4_S__n_0123_0123_0.resultIdx? ix0 (val_main_v8 (F := Ideal))
      = some (ix4 (0 : Fin 1) (0 : Fin 2) (0 : Fin 2) (0 : Fin 3)) := by
  decide +kernel

/-- The second scatter's update lands at (0,1,1,1): inside the extents 1, 2, 2, 3. Decided likewise. -/
theorem target_cos :
    scatter_S1x2x2x3_S4_S__n_0123_0123_0.resultIdx? ix0 (val_main_v14 (F := Ideal))
      = some (ix4 (0 : Fin 1) (1 : Fin 2) (1 : Fin 2) (1 : Fin 3)) := by
  decide +kernel

/-- The third scatter's update lands at (0,1,1,2). Decided likewise. -/
theorem target_sin :
    scatter_S1x2x2x3_S4_S__n_0123_0123_0.resultIdx? ix0 (val_main_v20 (F := Ideal))
      = some (ix4 (0 : Fin 1) (1 : Fin 2) (1 : Fin 2) (2 : Fin 3)) := by
  decide +kernel

/-- The argument [1] reshaped to a scalar holds the argument's one element: both shapes have a single
    row-major position. -/
theorem angle_apply (x0 : (⟨S1, .f32⟩ : BufTy).Contents (Elt Ideal)) :
    val_main_v0 (F := Ideal) x0 ix0 = x0 (ix1 (0 : Fin 1)) := by
  unfold val_main_v0
  refine shapeCast_apply (s := S1) (t := S_) x0 _ _ _ ?_
  have h1 := (S1.rowMajor (ix1 (0 : Fin 1))).isLt
  have h2 := (S_.rowMajor ix0).isLt
  have e1 : S1.numel = 1 := by decide
  have e2 : S_.numel = 1 := by decide
  omega

/-- THE REFERENCE'S RESULT is the core at the argument's element: each scatter is a point overwrite
    (its target decided above), the filled array reads the word of 0.0 everywhere, the three overwrites are
    the table by coordinates, and the host's cosine and sine are the extended reals' on both sides. -/
theorem result_eq (x0 : (⟨S1, .f32⟩ : BufTy).Contents (Elt Ideal)) :
    val_main_v21 (F := Ideal) x0 = rotationCore (x0 (ix1 (0 : Fin 1))) := by
  unfold val_main_v21 val_main_v15 val_main_v9
  rw [scatter_scalar_set _ _ _ _ _ target_one, scatter_scalar_set _ _ _ _ _ target_cos,
    scatter_scalar_set _ _ _ _ _ target_sin]
  simp only [val_main_v3_apply, val_main_cst_apply]
  refine (overwrites_eq _ _ _ _).trans ?_
  unfold rotationCore
  rw [val_main_v1_apply, val_main_v2_apply, angle_apply]
  rfl

end Cert.ReferenceIdeal.RefValue

end
-- ==== Proof.lean ====
/-
  The left core of a plane rotation, computed two ways, is one array.

  Both programs take a one-element array holding an angle θ and return the [1,2,2,3] array that is zero
  except for 1 at (0,0,0,0), cos θ at (0,1,1,1) and sin θ at (0,1,1,2).

  * The kernel, in one grid point whose blocks are the whole arrays, builds three position masks from the
    coordinates and stores select(is (0,0,0), 1, select(is (1,1,1), cos θ, select(is (1,1,2), sin θ, 0))):
    a table looked up by coordinates (Proof/KernelPayload.lean; the block is the array, Proof/KernelValue.lean).
  * The reference fills the array with 0 and overwrites the three positions one after the other by
    scalar scatters (Proof/RefValue.lean; a scatter of one scalar is a point overwrite,
    Proof/LibScatterPoint.lean).

  On the extended reals the cosine and sine are the same functions on both sides and the words of 1.0 and
  0.0 are the same words, so the two results are equal as soon as the two arrangements are: three overwrites
  at three distinct positions are the table by coordinates (Proof/Spec.lean, `overwrites_eq`). No
  arithmetic law is used, so the finiteness of θ is never needed: the equality holds at every extended real.

  The frames are the generated frame runs (the reference's is its generated run with the result dropped);
  the idealization rewrote no operation, so there is nothing to preserve.
-/
import proofs.«149861_j45157286150747_2_alg».proof.Defs
import proofs.«149861_j45157286150747_2_alg».proof.Proof.Gen.Kernel
import proofs.«149861_j45157286150747_2_alg».proof.Proof.Gen.Kernel.Skeleton
import proofs.«149861_j45157286150747_2_alg».proof.Proof.Gen.Kernel.Launch
import proofs.«149861_j45157286150747_2_alg».proof.Proof.Gen.Kernel.Points
import proofs.«149861_j45157286150747_2_alg».proof.Proof.Gen.Kernel.Frame
import proofs.«149861_j45157286150747_2_alg».proof.Proof.Gen.KernelIdeal
import proofs.«149861_j45157286150747_2_alg».proof.Proof.Gen.KernelIdeal.Skeleton
import proofs.«149861_j45157286150747_2_alg».proof.Proof.Gen.KernelIdeal.Launch
import proofs.«149861_j45157286150747_2_alg».proof.Proof.Gen.KernelIdeal.Points
import proofs.«149861_j45157286150747_2_alg».proof.Proof.Gen.KernelIdeal.Frame
import proofs.«149861_j45157286150747_2_alg».proof.Proof.Gen.ReferenceIdeal
import proofs.«149861_j45157286150747_2_alg».proof.Proof.Gen.Pre_finite_inputs
import proofs.«149861_j45157286150747_2_alg».proof.Proof.Gen.KernelIdeal.Value
import proofs.«149861_j45157286150747_2_alg».proof.Proof.Gen.ReferenceIdeal.Run
import proofs.«149861_j45157286150747_2_alg».proof.Proof.Gen.ReferenceIdeal.Read
import proofs.«149861_j45157286150747_2_alg».proof.Proof.KernelValue
import proofs.«149861_j45157286150747_2_alg».proof.Proof.RefValue
import Idealize.ShloMosaic.Adequacy
import Idealize.ShloMosaic.Init

noncomputable section

namespace Cert.Proof

open Idealize.ShloMosaic Idealize.SL.Sem

/-- The word-level kernel runs and leaves its argument unchanged: its frame run. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument unchanged: its run, with what it says of the result dropped. -/
theorem frame_referenceIdeal : Cert.frame_ReferenceIdeal := fun m ρ _ =>
  (θ_run Cert.ReferenceIdeal.defs _ _).mono (fun _ h c => (h c).2)
    (Cert.ReferenceIdeal.Value.run (F := Ideal) m ρ)

/-- The idealization rewrote no operation of the kernel: there is no conjunct to prove. -/
theorem preserves : Cert.preserves_Kernel_KernelIdeal := trivial

/-- From memories agreeing on the angle both programs end with the core at that angle: the kernel's result
    array (its run, read through its one block) and the reference's (its run, its three scatters read as
    overwrites) are the same function `rotationCore` of the same element. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
